-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x128 : Shape := ⟨2, ![16384, 128]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S512x128 : Shape := ⟨2, ![512, 128]⟩
abbrev S1x512 : Shape := ⟨2, ![1, 512]⟩
abbrev S512x1 : Shape := ⟨2, ![512, 1]⟩
abbrev S512 : Shape := ⟨1, ![512]⟩
abbrev S512x512 : Shape := ⟨2, ![512, 512]⟩

abbrev nBuf : Space → Nat
  | .hbm => 36
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384, .f32⟩
  | .hbm, ⟨10, _⟩ => ⟨S16384x128, .f32⟩
  | .hbm, ⟨11, _⟩ => ⟨S_, .f32⟩
  | .hbm, ⟨12, _⟩ => ⟨S16384, .f32⟩
  | .hbm, ⟨13, _⟩ => ⟨S1x16384, .f32⟩
  | .hbm, ⟨14, _⟩ => ⟨S16384x1, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S16384x128, .f32⟩
  | .local _ .vmem, ⟨3, _⟩ => ⟨S1x512, .f32⟩
  | .local _ .vmem, ⟨4, _⟩ => ⟨S1x512, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 32], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16384x128_S16384_d1 : S16384x128.ReducesTo [1] S16384
  h_S_ : 0 < S_.numel
  bcast_S_S16384 : S_.BroadcastsInDim S16384 (![] : Fin 0 → Fin S16384.rank)
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S16384x1_S16384 : S16384x1.ShapeCasts S16384
  reducesTo_S16384_S_d0 : S16384.ReducesTo [0] S_
  dot_S512x128_S512x128_S512x512_1_1_0_0_n_n_wf : DotDims.WF S512x128 S512x128 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 57
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_cst_14 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x128_S16384x128_S16384x16384_1_1_0_0_n_n_wf : DotDims.WF S16384x128 S16384x128 S16384x16384 [1] [1] [0] [0] [] []

variable [Facts₀]

def dot_S16384x128_S16384x128_S16384x16384_1_1_0_0_n_n : DotDims S16384x128 S16384x128 S16384x16384 where
  lhsContracting := [1]
  rhsContracting := [1]
  lhsNonContracting := [0]
  rhsNonContracting := [0]
  lhsBatch := []
  rhsBatch := []
  wf := dot_S16384x128_S16384x128_S16384x16384_1_1_0_0_n_n_wf

class Facts : Prop extends Facts₀ where

variable [Facts]
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.Spec.lean ====
/-
  The repulsion sums of the contrastive loss as functions of the two argument arrays, on the extended reals.

  For rows a_p of the first array and b_k of the second, the pair term is
      exp (-(max (|a_p|² + |b_k|² - 2 · ⟨a_p, b_k⟩) 0)),
  and row p's repulsion sum is the sum of the pair terms over all 16384 rows k of the second array.
  Two facts join the two programs: scaling by the float -1.0 is negation, as is negation followed by a
  division by the float 1.0; and a sum over 16384 rows is the sum, over 32 consecutive blocks, of the
  sums over each block's 512 rows.
-/
import Idealize.ShloMosaic.PureOps.Ideal.Laws
import Idealize.ShloMosaic.Lib.ValueIdx

noncomputable section

namespace Cert.Contrastive

open Idealize.ShloMosaic Idealize.ShloMosaic.ValueIdx

/-- A [16384, 128] array of extended reals. -/
abbrev Arr := (⟨2, ![16384, 128]⟩ : Shape).Idx → EReal

/-- The inner product of row `p` of `a` with row `k` of `b`. -/
def dotRow (a b : Arr) (p k : Fin 16384) : EReal := ∑ d : Fin 128, a (ix2 p d) * b (ix2 k d)

/-- The clamped squared distance of row `p` of `a` from row `k` of `b`, by the expansion
    |a_p|² + |b_k|² - 2⟨a_p, b_k⟩, the factor 2 left as the float word both programs spell. -/
def sqDist (a b : Arr) (p k : Fin 16384) : EReal :=
  max (dotRow a a p p + dotRow b b k k - Ideal.ofBits .f32 0x40000000#32 * dotRow a b p k) 0

/-- The pair term exp(-d²(p, k)). -/
def pairTerm (a b : Arr) (p k : Fin 16384) : EReal := Ideal.exp (-(sqDist a b p k))

/-- Row `p`'s repulsion sum: the pair terms over every row of `b`. -/
def rowSum (a b : Arr) (p : Fin 16384) : EReal := ∑ k : Fin 16384, pairTerm a b p k

/-- A natural number read as a row index (the numbers met are all below 16384). -/
def rowOf (n : ℕ) : Fin 16384 := ⟨n % 16384, Nat.mod_lt _ (by norm_num)⟩

theorem rowOf_val (n : ℕ) (h : n < 16384) : (rowOf n).val = n := Nat.mod_eq_of_lt h

/-- The float -1.0 is the extended real -1, and the float 1.0 is 1. -/
theorem negOne_word : Ideal.ofBits .f32 0xBF800000#32 = -1 := IdealRules.sign_bit.ideal_negOnePat .f32
theorem one_word : Ideal.ofBits .f32 0x3F800000#32 = 1 := IdealRules.sign_bit.ideal_onePat .f32

/-- Scaling by the float -1.0 negates, at the infinities too. -/
theorem mul_negOne_word (x : EReal) : x * Ideal.ofBits .f32 0xBF800000#32 = -x := by
  rw [negOne_word, mul_neg, mul_one]

/-- Dividing by the float 1.0 changes nothing, at the infinities too. -/
theorem div_one_word (x : EReal) : Ideal.div x (Ideal.ofBits .f32 0x3F800000#32) = x := by
  rw [one_word, ← EReal.coe_one, Ideal.div_coe one_ne_zero]
  simp

/-- A sum over 16384 rows, block by block: 32 blocks of 512 consecutive rows. -/
theorem sum_blocks (f : Fin 16384 → EReal) :
    ∑ k : Fin 16384, f k = ∑ s ∈ Finset.range 32, ∑ q : Fin 512, f (rowOf (s * 512 + q.val)) := by
  rw [Finset.sum_range (fun s => ∑ q : Fin 512, f (rowOf (s * 512 + q.val)))]
  rw [← Fintype.sum_prod_type' (fun (s : Fin 32) (q : Fin 512) => f (rowOf (s.val * 512 + q.val)))]
  rw [← Equiv.sum_comp (finProdFinEquiv (m := 32) (n := 512)) f]
  refine Finset.sum_congr rfl fun x _ => congrArg f (Fin.ext ?_)
  show x.2.val + 512 * x.1.val = (x.1.val * 512 + x.2.val) % 16384
  have h1 := x.1.isLt
  have h2 := x.2.isLt
  omega

end Cert.Contrastive

end
-- ==== Proof.Body.lean ====
/-
  What one grid step adds to the running sums. The body's accumulate payload, read at row `r` of its
  [512, 1] block over a block `x` of 512 rows of the first array, a block `y` of 512 rows of the second, the
  squared norms `s` of those rows of the second and the sums `acc` so far, is
      acc r + Σ_q exp (-(max (|x_r|² + s_q - 2·⟨x_r, y_q⟩) 0)),   q over the block's 512 rows;
  the reset payload is the zero block.
-/
import proofs.«137341_j20693152432200_2_alg».proof.Proof.Gen.KernelIdeal.Skeleton
import proofs.«137341_j20693152432200_2_alg».proof.Proof.LibColumn
import proofs.«137341_j20693152432200_2_alg».proof.Proof.Spec
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.Contrastive

/-- A lane sum of a [512, 128] block at row `r`: the sum over the row's 128 entries. -/
theorem lanes128 (v : FVec Ideal S512x128 .f32) (hφ : FKind.Formats .f32)
    (hacc : (0x00000000#32 : BitVec 32) = 0x00000000#32) (r : Fin 512) :
    multiReduction .add [1] S512 v 0x00000000#32 reduces_S512x128_S512 hφ hacc (ix1 r) = ∑ d : Fin 128, v (ix2 r d) := by
  refine (Ideal.multiReduction_add_single v 0x00000000#32 reduces_S512x128_S512 hφ hacc (ix1 r)).trans ?_
  refine Finset.sum_congr rfl fun d _ => congrArg v (funext fun a => Fin.ext ?_)
  match a with
  | ⟨0, _⟩ => rfl
  | ⟨1, _⟩ => rfl

/-- A lane sum of a [512, 512] block at row `r`: the sum over the row's 512 entries. -/
theorem lanes512 (v : FVec Ideal S512x512 .f32) (hφ : FKind.Formats .f32)
    (hacc : (0x00000000#32 : BitVec 32) = 0x00000000#32) (r : Fin 512) :
    multiReduction .add [1] S512 v 0x00000000#32 reduces_S512x512_S512 hφ hacc (ix1 r) = ∑ q : Fin 512, v (ix2 r q) := by
  refine (Ideal.multiReduction_add_single v 0x00000000#32 reduces_S512x512_S512 hφ hacc (ix1 r)).trans ?_
  refine Finset.sum_congr rfl fun d _ => congrArg v (funext fun a => Fin.ext ?_)
  match a with
  | ⟨0, _⟩ => rfl
  | ⟨1, _⟩ => rfl

theorem lhs_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The block product at (r, q): row `r` of `x` against row `q` of `y`, summed over the 128 columns. -/
theorem matmul_rows (x y : FVec Ideal S512x128 .f32) (r q : Fin 512) :
    matmul dot_S512x128_S512x128_S512x512_1_1_0_0_n_n (some .fp32) x y (constant S512x512 .f32 0x00000000#32) (ix2 r q)
      = ∑ d : Fin 128, x (ix2 r d) * y (ix2 q d) := by
  simp only [matmul]
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 r q) ((ValueIdx.contrEquiv1 dot_S512x128_S512x128_S512x512_1_1_0_0_n_n 128 rfl rfl).symm k) = ix2 r k := funext fun a => Fin.ext (by
    match a with
    | ⟨0, _⟩ => exact lhs_0 _ _
    | ⟨1, _⟩ => exact (lhs_1 _ _).trans hk)
  have er : dot_S512x128_S512x128_S512x512_1_1_0_0_n_n.rhsIdx (ix2 r q) ((ValueIdx.contrEquiv1 dot_S512x128_S512x128_S512x512_1_1_0_0_n_n 128 rfl rfl).symm k) = ix2 q k := funext fun a => Fin.ext (by
    match a with
    | ⟨0, _⟩ => exact rhs_0 _ _
    | ⟨1, _⟩ => exact (rhs_1 _ _).trans hk)
  rw [el, er]

/-- The reset payload is the zero block. -/
theorem pay1_apply (y : S512x1.Idx) : k0_pay1 (F := Ideal) y = 0 := by
  unfold k0_pay1
  rw [shapeCast_self]
  exact Ideal.ofBits_zero_f32

/-- The accumulate payload at row `r`. -/
theorem pay2_apply (x y : FVec Ideal S512x128 .f32) (s : FVec Ideal S1x512 .f32) (acc : FVec Ideal S512x1 .f32)
    (r : Fin 512) (u : Fin 1) :
    k0_pay2 (F := Ideal) x y s acc (ix2 r u)
      = acc (ix2 r u) + ∑ q : Fin 512,
          Ideal.exp (-(max (((∑ d : Fin 128, x (ix2 r d) * x (ix2 r d)) + s (ix2 (0 : Fin 1) q))
            - Ideal.ofBits .f32 0x40000000#32 * ∑ d : Fin 128, x (ix2 r d) * y (ix2 q d)) 0)) := by
  unfold k0_pay2
  dsimp only
  rw [shapeCast_self]
  refine congrArg (acc (ix2 r u) + ·) ?_
  refine (shapeCast_a_a1_apply _ _ r u).trans ?_
  refine (lanes512 _ _ _ r).trans ?_
  refine Finset.sum_congr rfl fun q _ => ?_
  simp only [exp, mulf, maximumf, subf, addf, broadcast, Ideal.exp_def, Ideal.mulf_def, Ideal.maximumf_def,
    Ideal.subf_def, Ideal.addf_def]
  rw [broadcastTo_a1_ab_apply, shapeCast_a_a1_apply, lanes128, broadcastTo_1b_ab_apply, shapeCast_self, matmul_rows]
  simp only [mulf, Ideal.mulf_def, Ideal.ofBits_def, mul_negOne_word, Ideal.ofBits_zero_f32]

end Cert.KernelIdeal.Body

end
-- ==== Proof.Cases.lean ====
/-
  What the body leaves in the running-sum scratch, and in the output block, in each of its three control
  cases, as values. At a row block's first step the scratch is reset to zero and the step's addend is added
  to it; at a later step the addend is added to what the step before left; at the block's last step the
  scratch so updated is also copied to the output block. In every case the new scratch is the accumulate
  payload of the step's three input blocks and the scratch it starts from.
-/
import proofs.«137341_j20693152432200_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The rows of the resident second array that the step at grid point `i` reads: 512 consecutive rows
    starting at the step's row offset. -/
def rowsAt (i : grid0.Coords) (x1 : Vec F S16384x128 .f32) : Vec F S512x128 .f32 :=
  View.ld (Val := Elt F) x1 (Rect.unit (s := S16384x128) (k0_off1 i) S512x128.size (k0_off1_inb i))

/-- A later step that is not the last: the scratch `xs0` it finds, plus the step's addend. -/
theorem scratch_B (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x128 .f32) (x1 : Vec F S16384x128 .f32) (x2 : Vec F S1x512 .f32) (xs0 : Vec F S512x1 .f32) :
    sout0_B_0 c i arg2 harg2 arg3 harg3 arg4 harg4 arg5 harg5 arg6 harg6 hc0 hc1 x0 x1 x2 xs0 = k0_pay2 x0 (rowsAt i x1) x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S512x128) hz, View.ld_unit_zero (S := S1x512) hz, View.ld_unit_zero (S := S512x1) hz]
  rfl

/-- The last step of a row block: the same new scratch, -/
theorem scratch_C (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x128 .f32) (x1 : Vec F S16384x128 .f32) (x2 : Vec F S1x512 .f32) (xs0 : Vec F S512x1 .f32) :
    sout0_C_0 c i arg2 harg2 arg3 harg3 arg4 harg4 arg5 harg5 arg6 harg6 hc0 hc1 x0 x1 x2 xs0 = k0_pay2 x0 (rowsAt i x1) x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x128) hz, View.ld_unit_zero (S := S1x512) hz, View.ld_unit_zero (S := S512x1) hz]
  rfl

/-- and the output block is a copy of it. -/
theorem out_C (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x128 .f32) (x1 : Vec F S16384x128 .f32) (x2 : Vec F S1x512 .f32) (xs0 : Vec F S512x1 .f32) :
    out0_C_3 c i arg2 harg2 arg3 harg3 arg4 harg4 arg5 harg5 arg6 harg6 hc0 hc1 x0 x1 x2 xs0 = k0_pay2 x0 (rowsAt i x1) x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S512x1) _ hz]
  simp only [View.readAt_eq_ld, harg2.read_unread, harg3.read_unread, harg4.read_unread, harg6.read_unread, View.ld_unit_zero (S := S512x128) hz, View.ld_unit_zero (S := S1x512) hz, View.ld_unit_zero (S := S512x1) hz]
  rfl

/-- The first step of a row block: the zero block plus the step's addend. -/
theorem scratch_A (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S1x512 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x128 .f32) (x1 : Vec F S16384x128 .f32) (x2 : Vec F S1x512 .f32) :
    sout0_A_0 c i arg2 harg2 arg3 harg3 arg4 harg4 arg5 harg5 arg6 harg6 hc0 hc1 x0 x1 x2 = k0_pay2 x0 (rowsAt i x1) x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg6.read_unread, View.ld_unit_zero (S := S512x128) hz, View.ld_unit_zero (S := S1x512) hz, View.ld_unit_zero (S := S512x1) hz]
  rfl

end Cert.KernelIdeal.Cases

end
-- ==== Proof.Blocks.lean ====
/-
  The input blocks of a grid step, read at coordinates. With the 1024 steps numbered row block by row
  block (step t is row block t / 32, column block t % 32): the first array's block holds its rows
  512·(t / 32) + r; the second array is resident whole, and the step loads its rows 512·(t % 32) + q; the
  third operand's block holds entries 512·(t % 32) + q of the row of squared norms.
-/
import proofs.«137341_j20693152432200_2_alg».proof.Proof.Gen.KernelIdeal.Frame
import proofs.«137341_j20693152432200_2_alg».proof.Proof.Cases
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The windows' block indices and the step's column coordinate, from the step number: decided over the grid. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 32
    ∧ win0_3.index t (0 : Fin 2) = t.val / 32 ∧ win0_3.index t (1 : Fin 2) = 0
    ∧ (grid0.coords t (1 : Fin 2)).val = t.val % 32 :=
  (by decide +kernel : ∀ t : Fin grid0.N, _)

/-- The first array's block at step `t`: row `r` of the block is row 512·(t / 32) + r of the array. -/
theorem blk0_apply (c : Dev nD) (t : Fin cfg0.N) (r : Fin 512) (d : Fin 128) (p : Fin 16384)
    (hp : p.val = 512 * (t.val / 32) + r.val) :
    iblk m c 0 t (ix2 r d) = V m c main_arg0 (ix2 p d) := by
  obtain ⟨e0, e1, -⟩ := idx_facts t
  show V m c main_arg0 (((cfg0.win 0).blk t).view.emb (ix2 r d)) = V m c main_arg0 (ix2 p d)
  refine congrArg (V m c main_arg0) (funext fun a => Fin.ext ?_)
  match a with
  | ⟨0, _⟩ => show win0_0.index t (0 : Fin 2) * 512 + 1 * r.val = p.val; omega
  | ⟨1, _⟩ => show win0_0.index t (1 : Fin 2) * 128 + 1 * d.val = d.val; omega

/-- The second array's one block is the whole array. -/
theorem blk1_eq (c : Dev nD) (t : Fin cfg0.N) : (iblk m c 1 t : Vec F S16384x128 .f32) = V m c main_arg1 := by
  obtain ⟨-, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 16384 + 1 * (j 0).val = (j 0).val; omega
  | ⟨1, _⟩ => show win0_1.index t (1 : Fin 2) * 128 + 1 * (j 1).val = (j 1).val; omega

/-- The rows a step loads from the resident array: row `q` of the load is row 512·(i 1) + q. -/
theorem rowsAt_apply (i : grid0.Coords) (x1 : Vec F S16384x128 .f32) (q : Fin 512) (d : Fin 128) (k : Fin 16384)
    (hk : k.val = 512 * (i 1).val + q.val) :
    Cases.rowsAt i x1 (ix2 q d) = x1 (ix2 k d) := by
  have e := k0_off1_eq i
  show x1 ((Rect.unit (s := S16384x128) (k0_off1 i) S512x128.size (k0_off1_inb i)).emb (ix2 q d)) = x1 (ix2 k d)
  refine congrArg x1 (funext fun a => Fin.ext ?_)
  match a with
  | ⟨0, _⟩ =>
    show k0_off1 i 0 + 1 * q.val = k.val
    rw [e]
    show 512 * (i 1).val + 1 * q.val = k.val
    omega
  | ⟨1, _⟩ =>
    show k0_off1 i 1 + 1 * d.val = d.val
    rw [e]
    show 0 + 1 * d.val = d.val
    omega

/-- The third operand's block at step `t`: entry `q` is entry 512·(t % 32) + q of the row of squared norms. -/
theorem blk2_apply (c : Dev nD) (t : Fin cfg0.N) (u : Fin 1) (q : Fin 512) (k : Fin 16384)
    (hk : k.val = 512 * (t.val % 32) + q.val) :
    iblk m c 2 t (ix2 u q) = V m c main_v8 (ix2 (0 : Fin 1) k) := by
  obtain ⟨-, -, -, -, e0, e1, -⟩ := idx_facts t
  have hu : u.val = 0 := by omega
  show V m c main_v8 (((cfg0.win 2).blk t).view.emb (ix2 u q)) = V m c main_v8 (ix2 (0 : Fin 1) k)
  refine congrArg (V m c main_v8) (funext fun a => Fin.ext ?_)
  match a with
  | ⟨0, _⟩ => show win0_2.index t (0 : Fin 2) * 1 + 1 * u.val = 0; omega
  | ⟨1, _⟩ => show win0_2.index t (1 : Fin 2) * 512 + 1 * q.val = k.val; omega

end Cert.KernelIdeal.Blocks

end
-- ==== Proof.HostPre.lean ====
/-
  The two buffers the host lines before the region prepare, as functions of the argument arrays: the row of
  squared norms of the second array's rows, which the region's third window reads, and the attraction
  vector exp(-|a_p - b_p|²), which the lines after the region read. At the extended reals the row's
  entry k is the inner product of row k of the second array with itself.
-/
import proofs.«137341_j20693152432200_2_alg».proof.Proof.Gen.KernelIdeal.Frame
import proofs.«137341_j20693152432200_2_alg».proof.Proof.Spec
import Idealize.ShloMosaic.Lib.StableHlo.Run
import Idealize.ShloMosaic.Lib.Tactic
import Idealize.ShloMosaic.Lib.ValueLayout
import Idealize.ShloMosaic.PureOps.Ideal.Laws

noncomputable section

namespace Cert.KernelIdeal.HostPre

open Cert.KernelIdeal Cert.KernelIdeal.Gen Cert.Contrastive
open Idealize.ShloMosaic Idealize.ShloMosaic.TcCoe Idealize.ShloMosaic.ValueIdx Idealize.SL.Sem Idealize.ShloMosaic.StableHlo

variable {F : FTy → Type} [FloatOps F]

/-- The row of squared norms of `a1`'s rows, as the host computes it: a row sum from zero, reshaped to [1, 16384]. -/
def normsRow (a1 : Vec F S16384x128 .f32) : Vec F S1x16384 .f32 :=
  shapeCast S1x16384 (Host.reduceAdd (mulf a1 a1) (constant (F := F) S_ .f32 0x00000000#32) reducesTo_S16384x128_S16384_d1 h_S_)
    shapeCasts_S16384_S1x16384

/-- The attraction vector as the kernel's program computes it: exp of the row sums of squared differences
    scaled by the float -1.0. -/
def attraction (a0 a1 : Vec F S16384x128 .f32) : Vec F S16384 .f32 :=
  Host.exp (mulf (Host.reduceAdd (mulf (subf a0 a1) (subf a0 a1)) (constant (F := F) S_ .f32 0x00000000#32)
      reducesTo_S16384x128_S16384_d1 h_S_)
    (broadcastInDim S16384 ![] bcast_S_S16384 (constant (F := F) S_ .f32 0xBF800000#32)))

variable (m : (ℓ : Loc nD τ sig) → Buf (Elt F) ℓ)

theorem V_v8 (c : Dev nD) : (V m c main_v8 : S1x16384.Idx → Elt F .f32) = normsRow (m ((c : Thread nD τ).loc main_arg1)) := by
  show StableHlo.after hostOps0 (fun b => m (c, b)) (Proc.devRef .tc main_v8) = _
  after_results
  rfl

theorem V_v5 (c : Dev nD) : (V m c main_v5 : S16384.Idx → Elt F .f32)
    = attraction (m ((c : Thread nD τ).loc main_arg0)) (m ((c : Thread nD τ).loc main_arg1)) := by
  show StableHlo.after hostOps0 (fun b => m (c, b)) (Proc.devRef .tc main_v5) = _
  after_results
  rfl

/-- Entry k of the norms row is ⟨b_k, b_k⟩. -/
theorem normsRow_apply (a1 : FVec Ideal S16384x128 .f32) (u : Fin 1) (k : Fin 16384) :
    normsRow (F := Ideal) a1 (ix2 u k) = dotRow a1 a1 k k := by
  unfold normsRow
  refine (shapeCast_a_1a_apply _ _ u k).trans ?_
  simp only [Host.reduceAdd, Ideal.hostReduceAdd_def]
  rw [Ideal.hostReduceAdd_single reducesTo_S16384x128_S16384_d1 (by decide)]
  refine (congrArg (· + _) Ideal.ofBits_zero_f32).trans ?_
  rw [zero_add]
  unfold dotRow
  refine Finset.sum_congr rfl fun d _ => ?_
  exact congrArg (fun i => a1 i * a1 i) (funext fun a => Fin.ext (by
    match a with
    | ⟨0, _⟩ => rfl
    | ⟨1, _⟩ => rfl))

end Cert.KernelIdeal.HostPre

end
-- ==== Proof.Accum.lean ====
/-
  The running sums across a row block's 32 steps. After step t = 32·b + j the scratch holds, at block row r,
  the sum over the column blocks s ≤ j of that step's addend: the pair terms of array row 512·b + r against
  the 512 rows of column block s. So at the row block's last step it holds the whole repulsion sum of row
  512·b + r, and that is what the step copies to the output block.
-/
import proofs.«137341_j20693152432200_2_alg».proof.Proof.Body
import proofs.«137341_j20693152432200_2_alg».proof.Proof.Cases
import proofs.«137341_j20693152432200_2_alg».proof.Proof.Blocks
import proofs.«137341_j20693152432200_2_alg».proof.Proof.HostPre
import proofs.«137341_j20693152432200_2_alg».proof.Proof.Spec
import Idealize.ShloMosaic.Lib.Pipeline.Value

noncomputable section

namespace Cert.KernelIdeal.Accum

open Cert.KernelIdeal Cert.KernelIdeal.Gen Cert.Contrastive
open Idealize.ShloMosaic Idealize.ShloMosaic.TcCoe Idealize.ShloMosaic.ValueIdx Idealize.SL.Sem

variable (m : (ℓ : Loc nD τ sig) → Buf (Elt Ideal) ℓ)

/-- The two argument arrays as launched. -/
abbrev arrA (c : Dev nD) : Arr := m ((c : Thread nD τ).loc main_arg0)
abbrev arrB (c : Dev nD) : Arr := m ((c : Thread nD τ).loc main_arg1)

/-- Step `n`'s addend at block row `y`: the pair terms of array row 512·(n / 32) + y₀ against the rows of
    column block n % 32. -/
def addend (c : Dev nD) (n : ℕ) (y : S512x1.Idx) : EReal :=
  ∑ q : Fin 512, pairTerm (arrA m c) (arrB m c) (rowOf (512 * (n / 32) + (y 0).val)) (rowOf (512 * (n % 32) + q.val))

/-- The body's update of the running sums at step `n`, applied to the sums `acc` it finds. -/
def stepAt (c : Dev nD) (n : ℕ) (h : n < cfg0.N) (acc : Vec Ideal S512x1 .f32) : Vec Ideal S512x1 .f32 :=
  k0_pay2 (F := Ideal) (iblk m c 0 ⟨n, h⟩) (Cases.rowsAt (grid0.coords ⟨n, h⟩) (iblk m c 1 ⟨n, h⟩)) (iblk m c 2 ⟨n, h⟩) acc

/-- One step adds its addend. -/
theorem stepAt_apply (c : Dev nD) (n : ℕ) (h : n < cfg0.N) (acc : Vec Ideal S512x1 .f32) (y : S512x1.Idx) :
    stepAt m c n h acc y = acc y + addend m c n y := by
  obtain ⟨r, u, rfl⟩ : ∃ (r : Fin 512) (u : Fin 1), y = ix2 r u := ⟨y 0, y 1, eq_ix2 y⟩
  have hN : n < 1024 := lt_of_lt_of_eq h N_0
  obtain ⟨-, -, -, -, -, -, -, -, ec⟩ := Blocks.idx_facts ⟨n, h⟩
  have ec' : (grid0.coords ⟨n, h⟩ (1 : Fin 2)).val = n % 32 := ec
  unfold stepAt addend
  refine (Body.pay2_apply _ _ _ acc r u).trans ?_
  refine congrArg (acc (ix2 r u) + ·) (Finset.sum_congr rfl fun q _ => ?_)
  have hr := r.isLt
  have hq := q.isLt
  have hp : (rowOf (512 * (n / 32) + r.val)).val = 512 * (n / 32) + r.val := rowOf_val _ (by omega)
  have hk : (rowOf (512 * (n % 32) + q.val)).val = 512 * (n % 32) + q.val := rowOf_val _ (by omega)
  have hk' : (rowOf (512 * (n % 32) + q.val)).val = 512 * (grid0.coords ⟨n, h⟩ (1 : Fin 2)).val + q.val := by
    rw [ec']; exact hk
  simp only [Blocks.blk0_apply m c ⟨n, h⟩ r _ _ hp, Blocks.rowsAt_apply _ _ q _ _ hk', Blocks.blk1_eq,
    Blocks.blk2_apply m c ⟨n, h⟩ 0 q _ hk]
  rw [V_main_arg0 m c, V_main_arg1 m c, HostPre.V_v8 m c, HostPre.normsRow_apply]
  rfl

/-- The running sums after step `n`: what the body has left in its scratch. -/
def sums (c : Dev nD) (n : ℕ) (h : n < cfg0.N) : Vec Ideal S512x1 .f32 := (outsAt0 m c n h).2

/-- At a row block's first step the sums restart from the zero block. -/
theorem sums_reset (c : Dev nD) (n : ℕ) (h : n < cfg0.N) (h0 : n % 32 = 0) :
    sums m c n h = stepAt m c n h (k0_pay1 (F := Ideal)) := by
  have h1 : ¬n % 32 = 31 := by omega
  unfold sums stepAt
  exact (congrArg Prod.snd (outsAt0_A m c ⟨n, h⟩ h0 h1)).trans
    (Cases.scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
      (iblk m c 0 ⟨n, h⟩) (iblk m c 1 ⟨n, h⟩) (iblk m c 2 ⟨n, h⟩))

/-- The contents after a step depend on the step's number only. -/
theorem outsAt_congr (c : Dev nD) (a b : ℕ) (e : a = b) (pa : a < cfg0.N) (pb : b < cfg0.N) :
    outsAt0 m c a pa = outsAt0 m c b pb := by
  subst e; rfl

/-- At a step that is not a row block's first, the scratch is the step's update of what the step before left. -/
theorem scratch_step (c : Dev nD) (t : Fin cfg0.N) (h0 : ¬t.val % 32 = 0) :
    (outsAt0 m c t.val t.isLt).2 = stepAt m c t.val t.isLt (outsAt0 m c (t.val - 1) (Nat.lt_of_le_of_lt (Nat.sub_le _ _) t.isLt)).2 := by
  unfold stepAt
  by_cases h1 : t.val % 32 = 31
  · exact (congrArg Prod.snd (outsAt0_C m c t h0 h1)).trans
      (Cases.scratch_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1)
        (iblk m c 0 t) (iblk m c 1 t) (iblk m c 2 t) (outsAt0 m c (t.val - 1) (Nat.lt_of_le_of_lt (Nat.sub_le _ _) t.isLt)).2)
  · exact (congrArg Prod.snd (outsAt0_B m c t h0 h1)).trans
      (Cases.scratch_B c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh))
        (iblk m c 0 t) (iblk m c 1 t) (iblk m c 2 t) (outsAt0 m c (t.val - 1) (Nat.lt_of_le_of_lt (Nat.sub_le _ _) t.isLt)).2)

/-- At every other step they continue from what the step before left. -/
theorem sums_step (c : Dev nD) (n : ℕ) (h : n + 1 < cfg0.N) (hne : ¬(n + 1) % 32 = 0) :
    sums m c (n + 1) h = stepAt m c (n + 1) h (sums m c n (Nat.lt_of_succ_lt h)) := by
  unfold sums
  refine (scratch_step m c ⟨n + 1, h⟩ hne).trans ?_
  exact congrArg (fun z : Vec Ideal S512x1 .f32 × Vec Ideal S512x1 .f32 => stepAt m c (n + 1) h z.2)
    (outsAt_congr m c (n + 1 - 1) n (by omega) _ (Nat.lt_of_succ_lt h))

/-- So after step t the sums are the addends of the row block's steps so far. -/
theorem sums_eq (c : Dev nD) (t : ℕ) (ht : t < cfg0.N) (y : S512x1.Idx) :
    sums m c t ht y = ∑ s ∈ Finset.range (t % 32 + 1), addend m c (32 * (t / 32) + s) y := by
  have h' : 32 * (t / 32) + t % 32 < cfg0.N := by rw [Nat.div_add_mod]; exact ht
  have e1 : sums m c t ht
      = Pipeline.accAt (fun n h => stepAt m c n h (k0_pay1 (F := Ideal))) (fun n h acc => stepAt m c n h acc) (32 * (t / 32)) (t % 32) h' :=
    Pipeline.eq_accAt_of_mod (fun n h => sums m c n h) 32 (fun n h => stepAt m c n h (k0_pay1 (F := Ideal)))
      (fun n h acc => stepAt m c n h acc) (fun n h h0 => sums_reset m c n h h0) (fun n h hne => sums_step m c n h hne)
      (by norm_num) t ht h'
  have e2 := Pipeline.accAt_add_apply (ι := S512x1.Idx) (β := EReal)
    (fun n h => stepAt m c n h (k0_pay1 (F := Ideal))) (fun n h acc => stepAt m c n h acc) (fun _ => 0) (addend m c)
    (32 * (t / 32)) 31
    (fun h i => by rw [stepAt_apply, Body.pay1_apply])
    (fun n h acc i _ _ => stepAt_apply m c n h acc i)
    (t % 32) (by omega) h' y
  rw [e1, e2, zero_add]

/-- At a row block's last step the sums are the whole repulsion sums of the block's rows. -/
theorem sums_last (c : Dev nD) (t : Fin cfg0.N) (h31 : t.val % 32 = 31) (r : Fin 512) (u : Fin 1) :
    sums m c t.val t.isLt (ix2 r u) = rowSum (arrA m c) (arrB m c) (rowOf (512 * (t.val / 32) + r.val)) := by
  rw [sums_eq, h31, rowSum, sum_blocks]
  refine Finset.sum_congr rfl fun s hs => ?_
  have hs' : s < 32 := Finset.mem_range.mp hs
  unfold addend
  refine Finset.sum_congr rfl fun q _ => ?_
  have e1 : (32 * (t.val / 32) + s) / 32 = t.val / 32 := by omega
  have e2 : (32 * (t.val / 32) + s) % 32 = s := by omega
  rw [e1, e2, Nat.mul_comm 512 s]

/-- At a row block's last step the output block is the same update of what the step before left, -/
theorem out_step (c : Dev nD) (t : Fin cfg0.N) (h0 : ¬t.val % 32 = 0) (h31 : t.val % 32 = 31) :
    (outsAt0 m c t.val t.isLt).1 = stepAt m c t.val t.isLt (outsAt0 m c (t.val - 1) (Nat.lt_of_le_of_lt (Nat.sub_le _ _) t.isLt)).2 := by
  unfold stepAt
  exact (congrArg Prod.fst (outsAt0_C m c t h0 h31)).trans
    (Cases.out_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h31)
      (iblk m c 0 t) (iblk m c 1 t) (iblk m c 2 t) (outsAt0 m c (t.val - 1) (Nat.lt_of_le_of_lt (Nat.sub_le _ _) t.isLt)).2)

/-- so it is a copy of the sums. -/
theorem out_last (c : Dev nD) (t : Fin cfg0.N) (h31 : t.val % 32 = 31) :
    (outsAt0 m c t.val t.isLt).1 = sums m c t.val t.isLt := by
  have h0 : ¬t.val % 32 = 0 := by omega
  unfold sums
  exact (out_step m c t h0 h31).trans (scratch_step m c t h0).symm

end Cert.KernelIdeal.Accum

end
-- ==== Proof.Final.lean ====
/-
  From blocks to the array. The output's block is written back at the last step of each row block only;
  what that step writes is, row by row, the repulsion sums of the block's rows, and the 32 row blocks tile
  the [16384, 1] result. So the result array ends holding, at row p, the repulsion sum of row p.
-/
import proofs.«137341_j20693152432200_2_alg».proof.Proof.Accum
import Idealize.ShloMosaic.Lib.Pipeline.Value

noncomputable section

namespace Cert.KernelIdeal.Final

open Cert.KernelIdeal Cert.KernelIdeal.Gen Cert.Contrastive
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What the result array ends holding: at (p, 0) the repulsion sum of row p. -/
def G (c : Dev nD) : Buf (Elt Ideal) ((c : Thread nD τ).loc main_v9) :=
  fun i => rowSum (Accum.arrA m c) (Accum.arrB m c) (rowOf (i 0).val)

/-- What a flushing step writes back is its block of `G`. -/
theorem flushed_eq (c : Dev nD) (t : Fin cfg0.N) (hf : (cfg0.win 3).flush t = true) :
    (dats m 0 c).flushed 3 t = ((cfg0.win 3).blk t).view.read (Elt Ideal) (G m c) := by
  have h31 : t.val % 32 = 31 := (flush0_3 t).mp hf
  have hN : t.val < 1024 := lt_of_lt_of_eq t.isLt N_0
  obtain ⟨-, -, -, -, -, -, e0, e1, -⟩ := Blocks.idx_facts t
  show (cfg0.win 3).cut (grid0.coords t) ((dats m 0 c).after 3 t) = _
  rw [after0_3, Accum.out_last m c t h31]
  have hS := Accum.sums_last m c t h31
  generalize Accum.sums m c t.val t.isLt = S at hS ⊢
  refine funext fun (y : S512x1.Idx) => ?_
  rw [View.read_apply]
  show S y = _
  obtain ⟨r, u, rfl⟩ : ∃ (r : Fin 512) (u : Fin 1), y = ix2 r u := ⟨y 0, y 1, eq_ix2 y⟩
  rw [hS r u]
  unfold G
  refine Eq.trans (congrArg (rowSum _ _) (congrArg rowOf ?_)) (cast_eq _ _).symm
  show 512 * (t.val / 32) + r.val = win0_3.index t (0 : Fin 2) * 512 + 1 * r.val
  omega

/-- An index of the result is in step `t`'s block iff each coordinate is in the block's range. -/
theorem mem_blk (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v9).slice (win0_3.rect t)).set ↔ _
  rw [View.set_slice_whole, Rect.mem_set_unit]
  exact Iff.rfl

/-- Every row of the result is in the block of the last step of its row block. -/
theorem cover (c : Dev nD) (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  obtain ⟨tn, htn⟩ : ∃ tn, tn = 32 * ((i 0).val / 512) + 31 := ⟨_, rfl⟩
  have hlt : tn < cfg0.N := by rw [show cfg0.N = 1024 from N_0]; omega
  obtain ⟨-, -, -, -, -, -, e0, e1, -⟩ := Blocks.idx_facts ⟨tn, hlt⟩
  have e0' : win0_3.index ⟨tn, hlt⟩ (0 : Fin 2) = tn / 32 := e0
  refine ⟨⟨tn, hlt⟩, (flush0_3 _).mpr (by show tn % 32 = 31; omega), ?_⟩
  rw [mem_blk]
  intro a
  match a with
  | ⟨0, _⟩ =>
    show win0_3.index ⟨tn, hlt⟩ (0 : Fin 2) * 512 ≤ (i 0).val ∧ (i 0).val < win0_3.index ⟨tn, hlt⟩ (0 : Fin 2) * 512 + 512
    omega
  | ⟨1, _⟩ =>
    show win0_3.index ⟨tn, hlt⟩ (1 : Fin 2) * 1 ≤ (i 1).val ∧ (i 1).val < win0_3.index ⟨tn, hlt⟩ (1 : Fin 2) * 1 + 1
    omega

/-- The result array after the run. -/
theorem final (c : Dev nD) : (dats m 0 c).arrAt 3 cfg0.N = G m c :=
  (dats m 0 c).arrAt_eq_of_cover 3 (G m c) (flushed_eq m c) (cover c)

end Cert.KernelIdeal.Final

end
-- ==== Proof.Tail.lean ====
/-
  The lines both programs end with, as three functions of the vector of row repulsion sums and the attraction
  vector: the mean over rows of log(1 + (sum / 16384) / (attraction + ε)), the mean attraction, and the mean of
  sum / 16384. The reference's three results are these functions of its own two vectors.
-/
import proofs.«137341_j20693152432200_2_alg».proof.Proof.Gen.ReferenceIdeal.Read

noncomputable section

namespace Cert.Contrastive.Tail

open Cert.ReferenceIdeal Cert.ReferenceIdeal.Gen Cert.ReferenceIdeal.Read Idealize.ShloMosaic

variable {F : FTy → Type} [FloatOps F]

/-- The loss: the mean over rows of log(1 + (rs / 16384) / (att + ε)). -/
def meanLoss (rs att : FVec F S16384 .f32) : FVec F S_ .f32 :=
  Host.divf (Host.reduceAdd (Host.log1p (Host.divf
      (Host.divf rs (broadcastInDim S16384 ![] bcast_S_S16384 (constant (F := F) S_ .f32 0x46800000#32)))
      (addf att (broadcastInDim S16384 ![] bcast_S_S16384 (constant (F := F) S_ .f32 0x322BCC77#32)))))
    (constant (F := F) S_ .f32 0x00000000#32) reducesTo_S16384_S_d0 h_S_) (constant (F := F) S_ .f32 0x46800000#32)

/-- The mean attraction. -/
def meanAttr (att : FVec F S16384 .f32) : FVec F S_ .f32 :=
  Host.divf (Host.reduceAdd att (constant (F := F) S_ .f32 0x00000000#32) reducesTo_S16384_S_d0 h_S_)
    (constant (F := F) S_ .f32 0x46800000#32)

/-- The mean repulsion: the mean over rows of rs / 16384. -/
def meanRep (rs : FVec F S16384 .f32) : FVec F S_ .f32 :=
  Host.divf (Host.reduceAdd
      (Host.divf rs (broadcastInDim S16384 ![] bcast_S_S16384 (constant (F := F) S_ .f32 0x46800000#32)))
    (constant (F := F) S_ .f32 0x00000000#32) reducesTo_S16384_S_d0 h_S_) (constant (F := F) S_ .f32 0x46800000#32)

theorem ref_loss (x0 x1 : FVec F S16384x128 .f32) :
    val_main_v34 (F := F) x0 x1 = meanLoss (val_main_v19 (F := F) x0 x1) (val_main_v28 (F := F) x0 x1) := rfl

theorem ref_attr (x0 x1 : FVec F S16384x128 .f32) :
    val_main_v36 (F := F) x0 x1 = meanAttr (val_main_v28 (F := F) x0 x1) := rfl

theorem ref_rep (x0 x1 : FVec F S16384x128 .f32) :
    val_main_v38 (F := F) x0 x1 = meanRep (val_main_v19 (F := F) x0 x1) := rfl

end Cert.Contrastive.Tail

end
-- ==== Proof.Attr.lean ====
/-
  The attraction vector in its two spellings. For a vector R of row sums of squared differences, the
  reference takes exp of (-R) / 1.0 and the kernel's program exp of R · (-1.0); entry by entry both are
  exp (-R), at the infinities too.
-/
import proofs.«137341_j20693152432200_2_alg».proof.Proof.Spec
import Idealize.ShloMosaic.Lib.Pipeline.Value

noncomputable section

namespace Cert.Contrastive

open Idealize.ShloMosaic Idealize.ShloMosaic.ValueIdx

theorem attraction_forms (R : FVec Ideal ⟨1, ![16384]⟩ .f32)
    (hb hb' : (⟨0, ![]⟩ : Shape).BroadcastsInDim ⟨1, ![16384]⟩ (![] : Fin 0 → Fin 1)) :
    Host.exp (Host.divf (Host.negf R)
        (broadcastInDim ⟨1, ![16384]⟩ ![] hb (constant (F := Ideal) ⟨0, ![]⟩ .f32 0x3F800000#32)))
      = Host.exp (mulf R (broadcastInDim ⟨1, ![16384]⟩ ![] hb' (constant (F := Ideal) ⟨0, ![]⟩ .f32 0xBF800000#32))) := by
  funext i
  have e1 := broadcastInDim_apply (![] : Fin 0 → Fin 1) hb (constant (F := Ideal) ⟨0, ![]⟩ .f32 0x3F800000#32) i ix0
    (fun a => a.elim0)
  have e2 := broadcastInDim_apply (![] : Fin 0 → Fin 1) hb' (constant (F := Ideal) ⟨0, ![]⟩ .f32 0xBF800000#32) i ix0
    (fun a => a.elim0)
  show Ideal.exp (Ideal.div (-(R i)) (broadcastInDim ⟨1, ![16384]⟩ ![] hb (constant (F := Ideal) ⟨0, ![]⟩ .f32 0x3F800000#32) i))
    = Ideal.exp (R i * broadcastInDim ⟨1, ![16384]⟩ ![] hb' (constant (F := Ideal) ⟨0, ![]⟩ .f32 0xBF800000#32) i)
  rw [e1, e2]
  show Ideal.exp (Ideal.div (-(R i)) (Ideal.ofBits .f32 0x3F800000#32)) = Ideal.exp (R i * Ideal.ofBits .f32 0xBF800000#32)
  rw [div_one_word, mul_negOne_word]

end Cert.Contrastive

end
-- ==== Proof.RefSide.lean ====
/-
  The reference's vector of row sums, read at row p: the host's sum over all 16384 rows k of the second
  array of exp applied to the negated clamped squared distance divided by the float 1.0, which is the
  repulsion sum of row p.
-/
import proofs.«137341_j20693152432200_2_alg».proof.Proof.Gen.ReferenceIdeal.Read
import proofs.«137341_j20693152432200_2_alg».proof.Proof.Spec

noncomputable section

namespace Cert.Contrastive.RefSide

open Cert.ReferenceIdeal Cert.ReferenceIdeal.Gen Cert.ReferenceIdeal.Read Cert.Contrastive
open Idealize.ShloMosaic Idealize.ShloMosaic.ValueIdx

/-- The operand indices the reference's layout steps compose, in coordinates. -/
theorem e_sq1 (p k : Fin 16384) (d : Fin 128) :
    idx_main_v1 (idx_main_v5 (idx_main_v7 (idx_main_v19 (ix1 p) k))) d = ix2 p d := funext fun a => Fin.ext (by match a with | ⟨0, _⟩ => rfl | ⟨1, _⟩ => rfl)
theorem e_sq2 (p k : Fin 16384) (d : Fin 128) :
    idx_main_v3 (idx_main_v6 (idx_main_v8 (idx_main_v19 (ix1 p) k))) d = ix2 k d := funext fun a => Fin.ext (by match a with | ⟨0, _⟩ => rfl | ⟨1, _⟩ => rfl)
theorem e_l (p k : Fin 16384) (d : Fin 128) : lidx_main_v4 (idx_main_v19 (ix1 p) k) d = ix2 p d := funext fun a => Fin.ext (by match a with | ⟨0, _⟩ => rfl | ⟨1, _⟩ => rfl)
theorem e_r (p k : Fin 16384) (d : Fin 128) : ridx_main_v4 (idx_main_v19 (ix1 p) k) d = ix2 k d := funext fun a => Fin.ext (by match a with | ⟨0, _⟩ => rfl | ⟨1, _⟩ => rfl)

theorem rowSums_apply (x0 x1 : FVec Ideal S16384x128 .f32) (p : Fin 16384) :
    val_main_v19 (F := Ideal) x0 x1 (ix1 p) = rowSum x0 x1 p := by
  rw [val_main_v19_apply]
  refine (congrArg (· + _) Ideal.ofBits_zero_f32).trans ?_
  rw [zero_add]
  unfold rowSum
  refine Finset.sum_congr rfl fun k _ => ?_
  simp only [val_main_v18_apply, val_main_v17_apply, val_main_v16_apply, val_main_cst_3_apply, val_main_v15_apply,
    val_main_v14_apply, val_main_v13_apply, val_main_cst_2_apply, val_main_v12_apply, val_main_v11_apply,
    val_main_v10_apply, val_main_cst_1_apply, val_main_v4_apply, val_main_v9_apply, val_main_v7_apply,
    val_main_v5_apply, val_main_v1_apply, val_main_v8_apply, val_main_v6_apply, val_main_v3_apply,
    val_main_v0_apply, val_main_v2_apply, val_main_cst_apply, val_main_cst_0_apply, e_sq1, e_sq2, e_l, e_r,
    Ideal.ofBits_def, Ideal.mulf_def, Ideal.addf_def, Ideal.subf_def, Ideal.maximumf_def, Ideal.hostNegf_def,
    Ideal.negf_def, Ideal.hostDivf_def, Ideal.hostUnary_exp_def, Ideal.ofBits_zero_f32, zero_add, div_one_word]
  rfl

end Cert.Contrastive.RefSide

end
-- ==== Proof.LibSqueeze.lean ====
/-
  A column [a, 1] flattened to the vector [a] (the host's reshape after a reduction that kept its axis),
  read at an index written by coordinates.
-/
import Idealize.ShloMosaic.Lib.Pipeline.Value
import Idealize.ShloMosaic.Lib.ValueIdx

namespace Idealize.ShloMosaic.ValueIdx

variable {α : Type}

/-- An `[a, 1]` column cast to the vector `[a]` reads, at `i`, the column's entry of row `i`: both indices
    have row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KernelRun.lean ====
/-
  The kernel's program, run: its three results as functions of the launch arrays. The lines after the region
  apply the closing functions (the three means) to the region's result array, flattened, and to the attraction
  vector the lines before the region prepared. The result array holds the rows' repulsion sums, which is the
  reference's vector of row sums; the attraction vector is the reference's, by the two spellings of a negation.
  So each result is the reference's own stage of the launch arrays.
-/
import proofs.«137341_j20693152432200_2_alg».proof.Proof.Final
import proofs.«137341_j20693152432200_2_alg».proof.Proof.HostPre
import proofs.«137341_j20693152432200_2_alg».proof.Proof.Tail
import proofs.«137341_j20693152432200_2_alg».proof.Proof.Attr
import proofs.«137341_j20693152432200_2_alg».proof.Proof.RefSide
import proofs.«137341_j20693152432200_2_alg».proof.Proof.LibSqueeze
import Idealize.ShloMosaic.Lib.StableHlo.Run
import Idealize.ShloMosaic.Lib.Tactic

noncomputable section

namespace Cert.KernelIdeal.Run

open Cert.KernelIdeal Cert.KernelIdeal.Gen Cert.Contrastive
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The region's result array, flattened to a vector of 16384 row sums. -/
abbrev rowSums (c : Dev nD) : FVec Ideal S16384 .f32 :=
  shapeCast S16384 ((dats m 0 c).arrAt 3 cfg0.N) shapeCasts_S16384x1_S16384

/-- What the lines after the region find in the two buffers they read. -/
theorem after_v9 (c : Dev nD) :
    Pipeline.withArrays (cfgs 0).spec c (V0 m c) (fun w => (dats m 0 c).arrAt w (cfgs 0).N) (Proc.devRef .tc main_v9)
      = (dats m 0 c).arrAt 3 cfg0.N :=
  Pipeline.withArrays_arr spec0 launch0.win.arr_inj c _ _ 3

theorem after_v5 (c : Dev nD) :
    Pipeline.withArrays (cfgs 0).spec c (V0 m c) (fun w => (dats m 0 c).arrAt w (cfgs 0).N) (Proc.devRef .tc main_v5)
      = V m c main_v5 :=
  Pipeline.withArrays_of_ne spec0 c _ _ main_v5 (fun w => by fin_cases w <;> decide)

/-- The three results as the closing functions of the flattened result array and the attraction buffer. -/
theorem tail_v18 (c : Dev nD) : Pipeline.afterTail₀ cfgs (dats m) 0 (V0 m) [hostOps1] c main_v18
    = Tail.meanLoss (rowSums m c) (V m c main_v5) := by
  unfold Pipeline.afterTail₀
  show StableHlo.after hostOps1 _ (Proc.devRef .tc main_v18) = _
  after_results
  rw [after_v9, after_v5]
  unfold rowSums
  generalize (dats m 0 c).arrAt 3 cfg0.N = X
  generalize V m c main_v5 = Y
  rfl

theorem tail_v20 (c : Dev nD) : Pipeline.afterTail₀ cfgs (dats m) 0 (V0 m) [hostOps1] c main_v20
    = Tail.meanAttr (F := Ideal) (V m c main_v5) := by
  unfold Pipeline.afterTail₀
  show StableHlo.after hostOps1 _ (Proc.devRef .tc main_v20) = _
  after_results
  rw [after_v5]
  generalize V m c main_v5 = Y
  rfl

theorem tail_v22 (c : Dev nD) : Pipeline.afterTail₀ cfgs (dats m) 0 (V0 m) [hostOps1] c main_v22
    = Tail.meanRep (rowSums m c) := by
  unfold Pipeline.afterTail₀
  show StableHlo.after hostOps1 _ (Proc.devRef .tc main_v22) = _
  after_results
  rw [after_v9]
  unfold rowSums
  generalize (dats m 0 c).arrAt 3 cfg0.N = X
  rfl

/-- The flattened result array is the reference's vector of row sums. -/
theorem rowSums_eq (c : Dev nD) :
    rowSums m c = Cert.ReferenceIdeal.Read.val_main_v19 (F := Ideal) (m ((c.tc : Thread nD τ).loc main_arg0)) (m ((c.tc : Thread nD τ).loc main_arg1)) := by
  unfold rowSums
  rw [Final.final m c]
  funext i
  obtain ⟨p, rfl⟩ : ∃ p : Fin 16384, i = ix1 p := ⟨i 0, eq_ix1 i⟩
  refine (shapeCast_a1_a_apply _ _ p).trans ?_
  rw [RefSide.rowSums_apply]
  unfold Final.G
  refine congrArg (rowSum _ _) (Fin.ext ?_)
  exact rowOf_val _ p.isLt

/-- The attraction buffer is the reference's attraction vector. -/
theorem attraction_eq (c : Dev nD) :
    V m c main_v5 = Cert.ReferenceIdeal.Read.val_main_v28 (F := Ideal) (m ((c.tc : Thread nD τ).loc main_arg0)) (m ((c.tc : Thread nD τ).loc main_arg1)) := by
  rw [HostPre.V_v5 m c]
  exact (attraction_forms _ _ _).symm

/-- THE RUN, READ: every weakly fair execution ends with the three results at the reference's stages of the
    launch arrays, and the argument arrays as launched. -/
theorem run : θ_run defs (onTc (τ := τ) (main (F := Ideal))) ⟨m, fun _ => 0, ρ⟩ fun r => ∀ c : Dev nD,
      r.2.mem ((c.tc : Thread nD τ).loc main_v18) = Cert.ReferenceIdeal.Read.val_main_v34 (F := Ideal) (m ((c.tc : Thread nD τ).loc main_arg0)) (m ((c.tc : Thread nD τ).loc main_arg1))
      ∧ r.2.mem ((c.tc : Thread nD τ).loc main_v20) = Cert.ReferenceIdeal.Read.val_main_v36 (F := Ideal) (m ((c.tc : Thread nD τ).loc main_arg0)) (m ((c.tc : Thread nD τ).loc main_arg1))
      ∧ r.2.mem ((c.tc : Thread nD τ).loc main_v22) = Cert.ReferenceIdeal.Read.val_main_v38 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v18 (Pipeline.mem_restRefs_of main_v18 rfl (fun w => by fin_cases w <;> decide))).trans
        ((tail_v18 m c).trans (by rw [rowSums_eq, attraction_eq, Tail.ref_loss])),
      ((h c).2 main_v20 (Pipeline.mem_restRefs_of main_v20 rfl (fun w => by fin_cases w <;> decide))).trans
        ((tail_v20 m c).trans (by rw [attraction_eq, Tail.ref_attr])),
      ((h c).2 main_v22 (Pipeline.mem_restRefs_of main_v22 rfl (fun w => by fin_cases w <;> decide))).trans
        ((tail_v22 m c).trans (by rw [rowSums_eq, Tail.ref_rep])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.lean ====
/-
  A contrastive loss over two [16384, 128] arrays a, b, computed two ways, and the two ways agree on the
  extended reals.

  Both programs return three means over the 16384 rows p: of log(1 + rep_p / (att_p + ε)), of att_p and of
  rep_p, where att_p = exp(-|a_p - b_p|²) and rep_p = (Σ_k exp(-d²(p, k))) / 16384 with
  d²(p, k) = max(|a_p|² + |b_k|² - 2⟨a_p, b_k⟩, 0).

  The reference forms the whole [16384, 16384] matrix of pair terms and sums each row at once. The kernel tiles
  it: for each block of 512 rows p it walks the 32 blocks of 512 rows k, adds each block's partial row sums
  into a scratch it zeroed at the first block, and writes the scratch out after the last. A sum over 16384 rows
  is the sum of its 32 block sums, so the kernel's result array holds the same row sums (Accum, Final).
  The one other difference is a spelling: the kernel scales by the float -1.0 where the reference negates and
  divides by the float 1.0; both are negation, at the infinities too (Spec, Attr). The closing lines (the three
  means) are the same operations in both programs and are carried as three functions that are never opened
  (Tail). Nothing here needs the inputs to be finite: only commutativity and associativity of the sum and the
  two negation laws are used.
-/
import proofs.«137341_j20693152432200_2_alg».proof.Defs
import proofs.«137341_j20693152432200_2_alg».proof.Proof.Gen.Kernel
import proofs.«137341_j20693152432200_2_alg».proof.Proof.Gen.Kernel.Frame
import proofs.«137341_j20693152432200_2_alg».proof.Proof.Gen.KernelIdeal
import proofs.«137341_j20693152432200_2_alg».proof.Proof.Gen.KernelIdeal.Frame
import proofs.«137341_j20693152432200_2_alg».proof.Proof.Gen.ReferenceIdeal
import proofs.«137341_j20693152432200_2_alg».proof.Proof.Gen.ReferenceIdeal.Run
import proofs.«137341_j20693152432200_2_alg».proof.Proof.Gen.ReferenceIdeal.Read
import proofs.«137341_j20693152432200_2_alg».proof.Proof.Gen.Pre_finite_inputs
import proofs.«137341_j20693152432200_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is a straight line of host operations: it runs, and writes no argument. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The idealization rewrote nothing. -/
theorem preserves : Cert.preserves_Kernel_KernelIdeal := trivial

/-- From memories that agree on the two arrays, both programs end with the same three extended reals: the
    kernel's results are the reference's stages of its launch arrays, and the reference's are those stages of
    arrays that agree with them. -/
theorem algebraic : Cert.algebraic_KernelIdeal_ReferenceIdeal := by
  intro m ρ m' ρ' _ hagree
  refine ⟨fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ?_) (Cert.ReferenceIdeal.Value.run (F := Ideal) m' ρ')
  obtain ⟨h1, h2, h3, h4, h5⟩ := h c
  refine ⟨h1.trans ?_, h2.trans ?_, h3.trans ?_, h4, h5⟩
  · rw [Cert.ReferenceIdeal.Read.val_main_v34_eq, (hagree c).1, (hagree c).2]
  · rw [Cert.ReferenceIdeal.Read.val_main_v36_eq, (hagree c).1, (hagree c).2]
  · rw [Cert.ReferenceIdeal.Read.val_main_v38_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
